-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S64x1024x1024 : Shape := ⟨3, ![64, 1024, 1024]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_

variable [Facts]

def fn_part1 {F : FTy → Type} [FloatOps F] (main_arg5 : FVec F S64x1024x1024 .f32) (main_v13 : IVec S_ 1) (main_v16 : IVec S64x1024x1024 1) : IVec S_ 1 :=
  let main_c_5 : IVec S_ 1 := constantI S_ 1 1#1
  let main_v17 : IVec S_ 1 := (fun x v => Host.reduce IntOp.andi x v reducesTo_S64x1024x1024_S_d0_1_2 h_S_) main_v16 main_c_5
  let main_v18 : IVec S_ 1 := andi main_v13 main_v17
  let main_v19 : FVec F S64x1024x1024 .f32 := Host.absf main_arg5
  let main_cst_6 : FVec F S_ .f32 := constant S_ .f32 0x7F800000#32
  let main_v20 : FVec F S64x1024x1024 .f32 := broadcastInDim S64x1024x1024 ![] bcast_S_S64x1024x1024 main_cst_6
  let main_v21 : IVec S64x1024x1024 1 := cmpf .olt main_v19 main_v20
  let main_c_7 : IVec S_ 1 := constantI S_ 1 1#1
  let main_v22 : IVec S_ 1 := (fun x v => Host.reduce IntOp.andi x v reducesTo_S64x1024x1024_S_d0_1_2 h_S_) main_v21 main_c_7
  let main_v23 : IVec S_ 1 := andi main_v18 main_v22
  main_v23

def fn {F : FTy → Type} [FloatOps F] (main_arg0 : FVec F S64x1024x64 .f32) (main_arg1 : FVec F S64x1024x64 .f32) (main_arg2 : FVec F S64x1024x64 .f32) (main_arg3 : IVec S64x1024x1024 1) (main_arg4 : FVec F S64x1024x1024 .f32) (main_arg5 : FVec F S64x1024x1024 .f32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x1024x64 .f32 := Host.absf main_arg1
  let main_cst_0 : FVec F S_ .f32 := constant S_ .f32 0x7F800000#32
  let main_v5 : FVec F S64x1024x64 .f32 := broadcastInDim S64x1024x64 ![] bcast_S_S64x1024x64 main_cst_0
  let main_v6 : IVec S64x1024x64 1 := cmpf .olt main_v4 main_v5
  let main_c_1 : IVec S_ 1 := constantI S_ 1 1#1
  let main_v7 : IVec S_ 1 := (fun x v => Host.reduce IntOp.andi x v reducesTo_S64x1024x64_S_d0_1_2 h_S_) main_v6 main_c_1
  let main_v8 : IVec S_ 1 := andi main_v3 main_v7
  let main_v9 : FVec F S64x1024x64 .f32 := Host.absf main_arg2
  let main_cst_2 : FVec F S_ .f32 := constant S_ .f32 0x7F800000#32
  let main_v10 : FVec F S64x1024x64 .f32 := broadcastInDim S64x1024x64 ![] bcast_S_S64x1024x64 main_cst_2
  let main_v11 : IVec S64x1024x64 1 := cmpf .olt main_v9 main_v10
  let main_c_3 : IVec S_ 1 := constantI S_ 1 1#1
  let main_v12 : IVec S_ 1 := (fun x v => Host.reduce IntOp.andi x v reducesTo_S64x1024x64_S_d0_1_2 h_S_) main_v11 main_c_3
  let main_v13 : IVec S_ 1 := andi main_v8 main_v12
  let main_v14 : FVec F S64x1024x1024 .f32 := Host.absf main_arg4
  let main_cst_4 : FVec F S_ .f32 := constant S_ .f32 0x7F800000#32
  let main_v15 : FVec F S64x1024x1024 .f32 := broadcastInDim S64x1024x1024 ![] bcast_S_S64x1024x1024 main_cst_4
  let main_v16 : IVec S64x1024x1024 1 := cmpf .olt main_v14 main_v15
  fn_part1 (F := F) main_arg5 main_v13 main_v16
-- ==== Kernel.lean ====
abbrev S64x1024x64 : Shape := ⟨3, ![64, 1024, 64]⟩
abbrev S64x1024x1024 : Shape := ⟨3, ![64, 1024, 1024]⟩
abbrev S1x512x64 : Shape := ⟨3, ![1, 512, 64]⟩
abbrev S1x1024x64 : Shape := ⟨3, ![1, 1024, 64]⟩
abbrev S1x512x1024 : Shape := ⟨3, ![1, 512, 1024]⟩
abbrev S512x64 : Shape := ⟨2, ![512, 64]⟩
abbrev S1024x64 : Shape := ⟨2, ![1024, 64]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 16
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x1024, .i1⟩
  | .hbm, ⟨4, _⟩ => ⟨S64x1024x1024, .f32⟩
  | .hbm, ⟨5, _⟩ => ⟨S64x1024x1024, .f32⟩
  | .hbm, ⟨6, _⟩ => ⟨S64x1024x1024, .i32⟩
  | .hbm, ⟨7, _⟩ => ⟨S64x1024x64, .f32⟩
  | .hbm, ⟨8, _⟩ => ⟨S64x1024x1024, .f32⟩
  | .local _ .vmem, ⟨0, _⟩ => ⟨S1x512x64, .f32⟩
  | .local _ .vmem, ⟨1, _⟩ => ⟨S1x512x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x512x1024, .i32⟩
  | .local _ .vmem, ⟨7, _⟩ => ⟨S1x512x1024, .i32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x64, .f32⟩
  | .local _ .vmem, ⟨13, _⟩ => ⟨S1x512x64, .f32⟩
  | .local _ .vmem, ⟨14, _⟩ => ⟨S1x512x1024, .f32⟩
  | .local _ .vmem, ⟨15, _⟩ => ⟨S1x512x1024, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  shapeCasts_S512x64_S1x512x64 : S512x64.ShapeCasts S1x512x64
  dot_S512x64_S1024x64_S512x1024_1_1_0_0_n_n_wf : DotDims.WF S512x64 S1024x64 S512x1024 [1] [1] [0] [0] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x1024x64.size a
  hwx0_0 : ∀ i : grid0.Coords, EltTy.bits .f32 = 32 ∨ (Rect.block (s := S64x1024x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x1024x1024.size a
  hwx0_3 : ∀ i : grid0.Coords, EltTy.bits .i32 = 32 ∨ (Rect.block (s := S64x1024x1024) S1x512x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S64x1024x1024.size a
  hwx0_4 : ∀ i : grid0.Coords, EltTy.bits .f32 = 32 ∨ (Rect.block (s := S64x1024x1024) S1x512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S64x1024x1024.size a
  hwx0_5 : ∀ i : grid0.Coords, EltTy.bits .f32 = 32 ∨ (Rect.block (s := S64x1024x1024) S1x512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x64.size a ≤ S64x1024x64.size a
  hwx0_6 : ∀ i : grid0.Coords, EltTy.bits .f32 = 32 ∨ (Rect.block (s := S64x1024x64) S1x512x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S64x1024x1024.size a
  hwx0_7 : ∀ i : grid0.Coords, EltTy.bits .f32 = 32 ∨ (Rect.block (s := S64x1024x1024) S1x512x1024.size (cc0_transform_7 i) (hinb0_7 i)).WholeWords (EltTy.packing .f32)

variable [Facts₀]

def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg2) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S1x512x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩

abbrev nBuf : Space → Nat
  | .hbm => 31
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x1024, .i1⟩
  | .hbm, ⟨4, _⟩ => ⟨S64x1024x1024, .f32⟩
  | .hbm, ⟨5, _⟩ => ⟨S64x1024x1024, .f32⟩
  | .hbm, ⟨6, _⟩ => ⟨S64x1024x1024, .f32⟩
  | .hbm, ⟨7, _⟩ => ⟨S_, .f32⟩
  | .hbm, ⟨8, _⟩ => ⟨S64x1024x1024, .f32⟩
  | .hbm, ⟨9, _⟩ => ⟨S64x1024x1024, .f32⟩
  | .hbm, ⟨10, _⟩ => ⟨S64x1024x1024, .f32⟩
  | .hbm, ⟨11, _⟩ => ⟨S_, .f32⟩
  | .hbm, ⟨12, _⟩ => ⟨S_, .f32⟩
  | .hbm, ⟨13, _⟩ => ⟨S64x1024x1024, .f32⟩
  | .hbm, ⟨14, _⟩ => ⟨S64x1024x1024, .f32⟩
  | .hbm, ⟨15, _⟩ => ⟨S_, .f32⟩
  | .hbm, ⟨16, _⟩ => ⟨S64x1024, .f32⟩
  | .hbm, ⟨17, _⟩ => ⟨S_, .f32⟩
  | .hbm, ⟨18, _⟩ => ⟨S64x1024, .f32⟩
  | .hbm, ⟨19, _⟩ => ⟨S64x1024, .f32⟩
  | .hbm, ⟨20, _⟩ => ⟨S64x1024x1, .f32⟩
  | .hbm, ⟨21, _⟩ => ⟨S64x1024x1024, .f32⟩
  | .hbm, ⟨22, _⟩ => ⟨S64x1024x1024, .f32⟩
  | .hbm, ⟨23, _⟩ => ⟨S64x1024x1024, .f32⟩
  | .hbm, ⟨24, _⟩ => ⟨S_, .f32⟩
  | .hbm, ⟨25, _⟩ => ⟨S64x1024, .f32⟩
  | .hbm, ⟨26, _⟩ => ⟨S64x1024x1, .f32⟩
  | .hbm, ⟨27, _⟩ => ⟨S64x1024x1024, .f32⟩
  | .hbm, ⟨28, _⟩ => ⟨S64x1024x1024, .f32⟩
  | .hbm, ⟨29, _⟩ => ⟨S64x1024x1024, .f32⟩
  | .hbm, ⟨30, _⟩ => ⟨S64x1024x64, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x64_S64x1024x64_S64x1024x1024_2_2_1_1_0_0_wf : DotDims.WF S64x1024x64 S64x1024x64 S64x1024x1024 [2] [2] [1] [1] [0] [0]
  dot_S64x1024x1024_S64x1024x64_S64x1024x64_2_1_1_2_0_0_wf : DotDims.WF S64x1024x1024 S64x1024x64 S64x1024x64 [2] [1] [1] [2] [0] [0]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf

class Facts : Prop extends Facts₀ where

variable [Facts]
-- ==== Proof.Softmax.lean ====
/-
  Masked softmax attention over the extended reals, row by row.

  A row of scores `s : Fin 1024 → EReal` has a maximum `rowMax s` (the fold of `max` from −∞), and its softmax weight
  at column `k`, gated by a second row `g`, is `exp (s k − rowMax s) / (∑ k', exp (s k' − rowMax s)) · g k`
  (`rowWeight`). For arrays `Q K V : [64, 1024, 64]`, a mask `M`, a gate `Qm` and a bias `G` of shape
  `[64, 1024, 1024]`, the score of query `q` against key `k` in batch `b` is the fill value where the mask is set and
  `(∑ d, Q[b,q,d] · K[b,k,d]) / 8 − G[b,q,k]` elsewhere (`scoreRow`); `attn` is the gated softmax of each score row and
  `out` its product with `V`: `out[b,q,d] = ∑ k, attn[b,q,k] · V[b,k,d]`.

  The one algebraic law needed between two arrangements of the score: scaling the query by 1/8 before the dot product
  is dividing the dot product by 8 (`scaled_dot`). Multiplication by a finite nonnegative constant distributes over every
  sum of extended reals, infinite terms included, so the law asks nothing of the entries.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The constants the two programs spell -/

/-- The pattern of `0.125` denotes the real 1/8. -/
theorem ofBits_eighth : Ideal.ofBits .f32 0x3E000000#32 = ((1 / 8 : ℝ) : EReal) := by
  simp [Ideal.ofBits, Ideal.ieee, -EReal.coe_mul]; norm_num

/-- The pattern of `8.0` denotes the real 8. -/
theorem ofBits_eight : Ideal.ofBits .f32 0x41000000#32 = ((8 : ℝ) : EReal) := by
  simp [Ideal.ofBits, Ideal.ieee, -EReal.coe_mul]; norm_num

/-- The pattern `0xFF800000` denotes −∞, the least extended real. -/
theorem ofBits_negInf : Ideal.ofBits .f32 0xFF800000#32 = (⊥ : EReal) := by
  simp [Ideal.ofBits, Ideal.ieee]

/-! ## Scaling before or after the dot product -/

/-- A finite nonnegative factor distributes over a finite sum of extended reals. -/
theorem sum_mul_const {ι : Type} (s : Finset ι) (f : ι → EReal) (c : EReal) (h0 : 0 ≤ c) (ht : c ≠ ⊤) :
    (∑ i ∈ s, f i) * c = ∑ i ∈ s, f i * c := by
  classical
  refine Finset.induction_on s (by simp) ?_
  intro a s ha ih
  rw [Finset.sum_insert ha, Finset.sum_insert ha, EReal.right_distrib_of_nonneg_of_ne_top h0 ht, ih]

/-- Scaling each query entry by 1/8 before the dot product is dividing the dot product by 8. -/
theorem scaled_dot {n : ℕ} (q k : Fin n → EReal) :
    ∑ d : Fin n, (q d * Ideal.ofBits .f32 0x3E000000#32) * k d
      = Ideal.div (∑ d : Fin n, q d * k d) (Ideal.ofBits .f32 0x41000000#32) := by
  rw [ofBits_eighth, ofBits_eight, Ideal.div_coe (by norm_num : (8 : ℝ) ≠ 0),
    sum_mul_const _ _ _ (by exact_mod_cast (by norm_num : (0 : ℝ) ≤ 1 / 8)) (EReal.coe_ne_top _)]
  exact Finset.sum_congr rfl fun d _ => mul_right_comm _ _ _

/-! ## A row's softmax -/

/-- The maximum of a row, folded from −∞. -/
def rowMax (s : Fin 1024 → EReal) : EReal :=
  (Finset.univ : Finset (Fin 1024)).fold max (Ideal.ofBits .f32 0xFF800000#32) s

/-- Folding from −∞ and then taking the maximum with −∞ once more changes nothing. -/
theorem max_negInf_left (x : EReal) : max (Ideal.ofBits .f32 0xFF800000#32) x = x := by
  rw [ofBits_negInf]; exact max_eq_right bot_le

/-- The softmax weight of column `k` in the score row `s`, gated by the row `g`. -/
def rowWeight (s g : Fin 1024 → EReal) (k : Fin 1024) : EReal :=
  Ideal.div (Ideal.exp (s k - rowMax s)) (∑ k' : Fin 1024, Ideal.exp (s k' - rowMax s)) * g k

/-! ## The two result arrays as functions of the argument arrays -/

/-- Arrays of shape [64, 1024, 64] and [64, 1024, 1024] over the extended reals, and a mask of the latter shape. -/
abbrev Arr64 := (⟨3, ![64, 1024, 64]⟩ : Shape).Idx → EReal
abbrev Arr1024 := (⟨3, ![64, 1024, 1024]⟩ : Shape).Idx → EReal
abbrev Mask := (⟨3, ![64, 1024, 1024]⟩ : Shape).Idx → BitVec 1

/-- The masked, biased, scaled score of query `q` against key `k` in batch `b`. -/
def scoreRow (Q K : Arr64) (M : Mask) (G : Arr1024) (b : Fin 64) (q : Fin 1024) (k : Fin 1024) : EReal :=
  Scalar.select (M (ix3 b q k)) (Ideal.ofBits .f32 0xCF800000#32)
    (Ideal.div (∑ d : Fin 64, Q (ix3 b q d) * K (ix3 b k d)) (Ideal.ofBits .f32 0x41000000#32) - G (ix3 b q k))

/-- The attention weights: each score row's softmax, gated by `Qm`. -/
def attn (Q K : Arr64) (M : Mask) (Qm G : Arr1024) : Arr1024 := fun i =>
  rowWeight (scoreRow Q K M G (i 0) (i 1)) (fun k => Qm (ix3 (i 0) (i 1) k)) (i 2)

/-- The attention output: the weights times the values, summed over the keys. -/
def out (Q K V : Arr64) (M : Mask) (Qm G : Arr1024) : Arr64 := fun i =>
  ∑ k : Fin 1024, attn Q K M Qm G (ix3 (i 0) (i 1) k) * V (ix3 (i 0) k (i 2))

end Cert.Attn

end
-- ==== Proof.RefValue.lean ====
/-
  The reference computes the attention weights and the attention output of `Softmax.lean`.

  Stage by stage: the masked score at (b, q, k) (`score_eq`: the dot product over the feature axis divided by 8, the
  bias subtracted, the fill value under the mask), each row's maximum (`max_eq`: the fold from −∞; the further maximum
  with −∞ that the softmax takes is the identity), the exponentials and their row sums (`exp_eq`, `sum_eq`), the
  weights (`attn_eq`) and their product with the values (`out_eq`).
-/
import proofs.«145022_j85882166051390_2_alg».proof.Proof.Gen.ReferenceIdeal.Read
import proofs.«145022_j85882166051390_2_alg».proof.Proof.Softmax
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 x1 x2 : (⟨S64x1024x64, .f32⟩ : BufTy).Contents (Elt Ideal))
  (x3 : (⟨S64x1024x1024, .i1⟩ : BufTy).Contents (Elt Ideal))
  (x4 x5 : (⟨S64x1024x1024, .f32⟩ : BufTy).Contents (Elt Ideal))

/-- The masked score: queries `x2` against keys `x0`, bias `x5`, mask `x3`. -/
theorem score_eq (b : Fin 64) (q k : Fin 1024) :
    val_main_v4 (F := Ideal) x0 x2 x3 x5 (ix3 b q k) = Attn.scoreRow x2 x0 x3 x5 b q k := by
  rw [val_main_v4_apply, val_main_call0_v1_apply, val_main_call0_v0_apply, val_main_cst_0_apply,
    val_main_v3_apply, val_main_v2_apply, val_main_v1_apply, val_main_cst_apply, val_main_v0_apply]
  unfold Attn.scoreRow
  have el : ∀ d : Fin 64, lidx_main_v0 (ix3 b q k) d = ix3 b q d := fun d => funext fun a => Fin.ext (by
    match a with | ⟨0, _⟩ => rfl | ⟨1, _⟩ => rfl | ⟨2, _⟩ => rfl)
  have er : ∀ d : Fin 64, ridx_main_v0 (ix3 b q k) d = ix3 b k d := fun d => funext fun a => Fin.ext (by
    match a with | ⟨0, _⟩ => rfl | ⟨1, _⟩ => rfl | ⟨2, _⟩ => rfl)
  simp only [el, er]
  rfl

/-- Row (b, q) with column `k` put back is the entry (b, q, k). -/
theorem lift_row (h : S64x1024x1024.Reduces [2] S64x1024) (b : Fin 64) (q : Fin 1024) (k : Fin (S64x1024x1024.size 2)) :
    h.lift (ix2 b q) k = ix3 b q (⟨k.val, k.isLt⟩ : Fin 1024) := by
  funext c; apply Fin.ext
  fin_cases c <;> rfl

/-- The row maximum the softmax subtracts. -/
theorem max_eq (b : Fin 64) (q : Fin 1024) :
    val_main_v7 (F := Ideal) x0 x2 x3 x5 (ix2 b q) = Attn.rowMax (Attn.scoreRow x2 x0 x3 x5 b q) := by
  have h : S64x1024x1024.Reduces [2] S64x1024 := by decide
  rw [val_main_v7_apply, val_main_v6_apply, val_main_cst_2_apply]
  unfold val_main_v5
  rw [Host.reduce_eq_fold_single FloatOps.maximumf _ _ reducesTo_S64x1024x1024_S64x1024_d2 h h_S_]
  refine (Attn.max_negInf_left _).trans ?_
  unfold Attn.rowMax
  exact congrArg (fun f => Finset.fold max (Ideal.ofBits .f32 0xFF800000#32) f (Finset.univ : Finset (Fin 1024)))
    (funext fun k => (congrArg (val_main_v4 (F := Ideal) x0 x2 x3 x5) (lift_row h b q k)).trans (score_eq x0 x2 x3 x5 b q _))

/-- The exponential of a score less its row's maximum. -/
theorem exp_eq (b : Fin 64) (q k : Fin 1024) :
    val_main_v11 (F := Ideal) x0 x2 x3 x5 (ix3 b q k)
      = Ideal.exp (Attn.scoreRow x2 x0 x3 x5 b q k - Attn.rowMax (Attn.scoreRow x2 x0 x3 x5 b q)) := by
  have e : idx_main_v8 (idx_main_v9 (ix3 b q k)) = ix2 b q := funext fun a => Fin.ext (by
    match a with | ⟨0, _⟩ => rfl | ⟨1, _⟩ => rfl)
  rw [val_main_v11_apply, val_main_v10_apply, val_main_v9_apply, val_main_v8_apply, score_eq, e, max_eq]
  rfl

/-- The row sum of the exponentials. -/
theorem sum_eq (b : Fin 64) (q : Fin 1024) :
    val_main_v12 (F := Ideal) x0 x2 x3 x5 (ix2 b q)
      = ∑ k : Fin 1024, Ideal.exp (Attn.scoreRow x2 x0 x3 x5 b q k - Attn.rowMax (Attn.scoreRow x2 x0 x3 x5 b q)) := by
  rw [val_main_v12_apply, val_main_cst_3_apply]
  refine (congrArg (· + _) Ideal.ofBits_zero_f32).trans ((zero_add _).trans ?_)
  refine Finset.sum_congr rfl fun k _ => ?_
  have e : idx_main_v12 (ix2 b q) k = ix3 b q k := funext fun a => Fin.ext (by
    match a with | ⟨0, _⟩ => rfl | ⟨1, _⟩ => rfl | ⟨2, _⟩ => rfl)
  rw [e, exp_eq]

/-- The reference's second result is the attention weights. -/
theorem attn_eq : val_main_v16 (F := Ideal) x0 x2 x3 x4 x5 = Attn.attn x2 x0 x3 x4 x5 := by
  funext i
  obtain ⟨b, q, k, rfl⟩ : ∃ (b : Fin 64) (q k : Fin 1024), i = ix3 b q k := ⟨i 0, i 1, i 2, eq_ix3 i⟩
  have e : idx_main_v13 (idx_main_v14 (ix3 b q k)) = ix2 b q := funext fun a => Fin.ext (by
    match a with | ⟨0, _⟩ => rfl | ⟨1, _⟩ => rfl)
  rw [val_main_v16_apply, val_main_v15_apply, val_main_v14_apply, val_main_v13_apply, exp_eq, e, sum_eq]
  rfl

/-- The reference's first result is the attention output, the values being `x1`. -/
theorem out_eq : val_main_v17 (F := Ideal) x0 x1 x2 x3 x4 x5 = Attn.out x2 x0 x1 x3 x4 x5 := by
  funext i
  obtain ⟨b, q, d, rfl⟩ : ∃ (b : Fin 64) (q : Fin 1024) (d : Fin 64), i = ix3 b q d := ⟨i 0, i 1, i 2, eq_ix3 i⟩
  rw [val_main_v17_apply, attn_eq]
  unfold Attn.out
  refine Finset.sum_congr rfl fun k _ => ?_
  have el : lidx_main_v17 (ix3 b q d) k = ix3 b q k := funext fun a => Fin.ext (by
    match a with | ⟨0, _⟩ => rfl | ⟨1, _⟩ => rfl | ⟨2, _⟩ => rfl)
  have er : ridx_main_v17 (ix3 b q d) k = ix3 b k d := funext fun a => Fin.ext (by
    match a with | ⟨0, _⟩ => rfl | ⟨1, _⟩ => rfl | ⟨2, _⟩ => rfl)
  rw [el, er]

end Cert.ReferenceIdeal.RefValue

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.PayloadSoftmax.lean ====
/-
  The kernel body's arithmetic, read one entry at a time over the extended reals.

  At a grid point the body holds a [1, 512, 64] block of queries, [1, 1024, 64] blocks of keys and values, and
  [1, 512, 1024] blocks of the bias, the (widened) mask and the gate. Its attention block is the gated softmax of each of
  the 512 score rows (`attnBlock_apply`), the score of row `r` against key `k` being the fill value where the mask word
  is nonzero and `∑ d, (q[r,d] · 1/8) · key[k,d] − bias[r,k]` elsewhere (`blockScore`); its output block is that
  attention block times the values (`outBlock_apply`).
-/
import proofs.«145022_j85882166051390_2_alg».proof.Proof.Gen.KernelIdeal.Skeleton
import proofs.«145022_j85882166051390_2_alg».proof.Proof.Softmax
import proofs.«145022_j85882166051390_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The softmax of a 512 × 1024 block of scores -/

/-- The row maxima of a block of scores, kept as a column and spread back over the block. -/
def maxCols (S : FVec Ideal S512x1024 .f32) (hφ : FKind.Formats .f32)
    (hacc : (0xFF800000#32 : BitVec 32) = FKind.maximumf.neutral .f32 hφ) : FVec Ideal S512x1024 .f32 :=
  broadcastTo S512x1024 (shapeCast S512x1 (multiReduction .maximumf [1] S512 S 0xFF800000#32 reduces_S512x1024_S512 hφ hacc)
    shapeCasts_S512_S512x1) broadcasts_S512x1_S512x1024

/-- The row sums of a block, kept as a column and spread back over the block. -/
def sumCols (E : FVec Ideal S512x1024 .f32) (hφ : FKind.Formats .f32)
    (hacc : (0x00000000#32 : BitVec 32) = FKind.add.neutral .f32 hφ) : FVec Ideal S512x1024 .f32 :=
  broadcastTo S512x1024 (shapeCast S512x1 (multiReduction .add [1] S512 E 0x00000000#32 reduces_S512x1024_S512 hφ hacc)
    shapeCasts_S512_S512x1) broadcasts_S512x1_S512x1024

/-- Row `r` with column `k` put back is the entry (r, k). -/
theorem lift_row (r : Fin 512) (k : Fin (S512x1024.size 1)) :
    reduces_S512x1024_S512.lift (ix1 r) k = ix2 r (⟨k.val, k.isLt⟩ : Fin 1024) := by
  funext c; apply Fin.ext
  fin_cases c <;> rfl

/-- Every entry of row `r` of `maxCols S` is the maximum of row `r` of `S`. -/
theorem maxCols_apply (S : FVec Ideal S512x1024 .f32) (hφ : FKind.Formats .f32)
    (hacc : (0xFF800000#32 : BitVec 32) = FKind.maximumf.neutral .f32 hφ) (r : Fin 512) (k : Fin 1024) :
    maxCols S hφ hacc (ix2 r k) = Attn.rowMax fun k' => S (ix2 r k') := by
  unfold maxCols
  rw [Cert.Keepdims.broadcastTo_a1_ab_apply, Cert.Keepdims.shapeCast_a_a1_apply]
  refine (Ideal.multiReduction_maximumf_single S _ reduces_S512x1024_S512 hφ hacc (ix1 r)).trans ?_
  unfold Attn.rowMax
  exact congrArg (fun f => Finset.fold max (Ideal.ofBits .f32 0xFF800000#32) f (Finset.univ : Finset (Fin 1024)))
    (funext fun k' => congrArg S (lift_row r k'))

/-- Every entry of row `r` of `sumCols E` is the sum of row `r` of `E`. -/
theorem sumCols_apply (E : FVec Ideal S512x1024 .f32) (hφ : FKind.Formats .f32)
    (hacc : (0x00000000#32 : BitVec 32) = FKind.add.neutral .f32 hφ) (r : Fin 512) (k : Fin 1024) :
    sumCols E hφ hacc (ix2 r k) = ∑ k' : Fin 1024, E (ix2 r k') := by
  unfold sumCols
  rw [Cert.Keepdims.broadcastTo_a1_ab_apply, Cert.Keepdims.shapeCast_a_a1_apply]
  refine (Ideal.multiReduction_add_single E _ reduces_S512x1024_S512 hφ hacc (ix1 r)).trans ?_
  exact Finset.sum_congr rfl fun k' _ => congrArg E (lift_row r k')

/-- The gated softmax of a block of scores, as the body computes it. -/
def softmaxBlock (S g : FVec Ideal S512x1024 .f32) (hφ : FKind.Formats .f32)
    (hmax : (0xFF800000#32 : BitVec 32) = FKind.maximumf.neutral .f32 hφ)
    (hadd : (0x00000000#32 : BitVec 32) = FKind.add.neutral .f32 hφ) : FVec Ideal S512x1024 .f32 :=
  mulf (divf (exp (subf S (maxCols S hφ hmax))) (sumCols (exp (subf S (maxCols S hφ hmax))) hφ hadd)) g

/-- At (r, k) it is the gated softmax weight of column `k` in row `r`. -/
theorem softmaxBlock_apply (S g : FVec Ideal S512x1024 .f32) (hφ : FKind.Formats .f32)
    (hmax : (0xFF800000#32 : BitVec 32) = FKind.maximumf.neutral .f32 hφ)
    (hadd : (0x00000000#32 : BitVec 32) = FKind.add.neutral .f32 hφ) (r : Fin 512) (k : Fin 1024) :
    softmaxBlock S g hφ hmax hadd (ix2 r k) = Attn.rowWeight (fun k' => S (ix2 r k')) (fun k' => g (ix2 r k')) k := by
  unfold softmaxBlock Attn.rowWeight
  rw [mulf_apply, divf_apply, sumCols_apply]
  show Ideal.div (Ideal.exp (S (ix2 r k) - maxCols S _ _ (ix2 r k))) (∑ k' : Fin 1024, Ideal.exp (S (ix2 r k') - maxCols S _ _ (ix2 r k'))) * g (ix2 r k) = _
  simp only [maxCols_apply]

end Cert.KernelIdeal.Pay

end
-- ==== Proof.PayloadDots.lean ====
/-
  The body's two matrix products, read one entry at a time over the extended reals.

  Into a zero accumulator, the product of a 512 × 64 block with a 1024 × 64 block contracted over their second axes
  has at (r, k) the sum over `d` of `A[r,d] · B[k,d]` (`scoreDot_apply`: queries against keys, no transpose
  materialised), and the product of a 512 × 1024 block with a 1024 × 64 block has at (r, d) the sum over `k` of
  `A[r,k] · B[k,d]` (`valueDot_apply`: weights against values). Each sum runs over the product's one contracted axis,
  re-indexed by that axis's coordinate; the lemmas before each say which coordinate of an operand's index comes from
  the output index and which from the contraction index.
-/
import proofs.«145022_j85882166051390_2_alg».proof.Proof.Gen.KernelIdeal
import Idealize.ShloMosaic.Lib.ValueIdx
import Idealize.ShloMosaic.PureOps.Ideal.Laws

noncomputable section

namespace Cert.KernelIdeal.Pay

open Cert.KernelIdeal Idealize.ShloMosaic Idealize.ShloMosaic.ValueIdx

/-! ## Queries against keys -/

theorem scoreDot_lhs0 (j : S512x1024.Idx) (q : dot_S512x64_S1024x64_S512x1024_1_1_0_0_n_n.contr.Idx) :
    (dot_S512x64_S1024x64_S512x1024_1_1_0_0_n_n.lhsIdx j q 0).val = (j 0).val := by
  unfold DotDims.lhsIdx
  rw [dif_neg (show ¬(0 : Fin S512x64.rank) ∈ dot_S512x64_S1024x64_S512x1024_1_1_0_0_n_n.lhsBatch by decide), dif_pos (show (0 : Fin S512x64.rank) ∈ dot_S512x64_S1024x64_S512x1024_1_1_0_0_n_n.lhsNonContracting by decide)]
  rfl
theorem scoreDot_lhs1 (j : S512x1024.Idx) (q : dot_S512x64_S1024x64_S512x1024_1_1_0_0_n_n.contr.Idx) :
    (dot_S512x64_S1024x64_S512x1024_1_1_0_0_n_n.lhsIdx j q 1).val = (q ⟨0, by decide⟩).val :=
  dot_S512x64_S1024x64_S512x1024_1_1_0_0_n_n.lhsIdx_val_of_single rfl j q
theorem scoreDot_rhs0 (j : S512x1024.Idx) (q : dot_S512x64_S1024x64_S512x1024_1_1_0_0_n_n.contr.Idx) :
    (dot_S512x64_S1024x64_S512x1024_1_1_0_0_n_n.rhsIdx j q 0).val = (j 1).val := by
  unfold DotDims.rhsIdx
  rw [dif_neg (show ¬(0 : Fin S1024x64.rank) ∈ dot_S512x64_S1024x64_S512x1024_1_1_0_0_n_n.rhsBatch by decide), dif_pos (show (0 : Fin S1024x64.rank) ∈ dot_S512x64_S1024x64_S512x1024_1_1_0_0_n_n.rhsNonContracting by decide)]
  rfl
theorem scoreDot_rhs1 (j : S512x1024.Idx) (q : dot_S512x64_S1024x64_S512x1024_1_1_0_0_n_n.contr.Idx) :
    (dot_S512x64_S1024x64_S512x1024_1_1_0_0_n_n.rhsIdx j q 1).val = (q ⟨0, by decide⟩).val :=
  dot_S512x64_S1024x64_S512x1024_1_1_0_0_n_n.rhsIdx_val_of_single rfl j q

/-- Both operands contracted over their axis of extent 64. -/
theorem scoreDot_apply {φ₁ φ₂ : FTy} (A : FVec Ideal S512x64 φ₁) (B : FVec Ideal S1024x64 φ₂) (r : Fin 512) (k : Fin 1024) :
    matmul dot_S512x64_S1024x64_S512x1024_1_1_0_0_n_n none A B (constant S512x1024 .f32 0x00000000#32) (ix2 r k)
      = ∑ d : Fin 64, A (ix2 r d) * B (ix2 k d) := by
  simp only [matmul]
  rw [Ideal.matmul_constant_zero_apply, ← Equiv.sum_comp (contrEquiv1 dot_S512x64_S1024x64_S512x1024_1_1_0_0_n_n 64 rfl rfl).symm]
  refine Finset.sum_congr rfl fun d _ => ?_
  have hd := contrEquiv1_symm_val dot_S512x64_S1024x64_S512x1024_1_1_0_0_n_n 64 rfl rfl d
  have el : dot_S512x64_S1024x64_S512x1024_1_1_0_0_n_n.lhsIdx (ix2 r k) ((contrEquiv1 dot_S512x64_S1024x64_S512x1024_1_1_0_0_n_n 64 rfl rfl).symm d) = ix2 r d := funext fun a => Fin.ext (by
    match a with
    | ⟨0, _⟩ => exact scoreDot_lhs0 _ _
    | ⟨1, _⟩ => exact (scoreDot_lhs1 _ _).trans hd)
  have er : dot_S512x64_S1024x64_S512x1024_1_1_0_0_n_n.rhsIdx (ix2 r k) ((contrEquiv1 dot_S512x64_S1024x64_S512x1024_1_1_0_0_n_n 64 rfl rfl).symm d) = ix2 k d := funext fun a => Fin.ext (by
    match a with
    | ⟨0, _⟩ => exact scoreDot_rhs0 _ _
    | ⟨1, _⟩ => exact (scoreDot_rhs1 _ _).trans hd)
  rw [el, er]

/-! ## Weights against values -/

theorem valueDot_lhs0 (j : S512x64.Idx) (q : dot_S512x1024_S1024x64_S512x64_1_0_0_1_n_n.contr.Idx) :
    (dot_S512x1024_S1024x64_S512x64_1_0_0_1_n_n.lhsIdx j q 0).val = (j 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem valueDot_lhs1 (j : S512x64.Idx) (q : dot_S512x1024_S1024x64_S512x64_1_0_0_1_n_n.contr.Idx) :
    (dot_S512x1024_S1024x64_S512x64_1_0_0_1_n_n.lhsIdx j q 1).val = (q ⟨0, by decide⟩).val :=
  dot_S512x1024_S1024x64_S512x64_1_0_0_1_n_n.lhsIdx_val_of_single rfl j q
theorem valueDot_rhs0 (j : S512x64.Idx) (q : dot_S512x1024_S1024x64_S512x64_1_0_0_1_n_n.contr.Idx) :
    (dot_S512x1024_S1024x64_S512x64_1_0_0_1_n_n.rhsIdx j q 0).val = (q ⟨0, by decide⟩).val :=
  dot_S512x1024_S1024x64_S512x64_1_0_0_1_n_n.rhsIdx_val_of_single rfl j q
theorem valueDot_rhs1 (j : S512x64.Idx) (q : dot_S512x1024_S1024x64_S512x64_1_0_0_1_n_n.contr.Idx) :
    (dot_S512x1024_S1024x64_S512x64_1_0_0_1_n_n.rhsIdx j q 1).val = (j 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- The left operand contracted over its axis of extent 1024, the right over its first. -/
theorem valueDot_apply {φ₁ φ₂ : FTy} (A : FVec Ideal S512x1024 φ₁) (B : FVec Ideal S1024x64 φ₂) (r : Fin 512) (d : Fin 64) :
    matmul dot_S512x1024_S1024x64_S512x64_1_0_0_1_n_n none A B (constant S512x64 .f32 0x00000000#32) (ix2 r d)
      = ∑ k : Fin 1024, A (ix2 r k) * B (ix2 k d) := by
  simp only [matmul]
  rw [Ideal.matmul_constant_zero_apply, ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 r d) ((contrEquiv1 dot_S512x1024_S1024x64_S512x64_1_0_0_1_n_n 1024 rfl rfl).symm k) = ix2 r k := funext fun a => Fin.ext (by
    match a with
    | ⟨0, _⟩ => exact valueDot_lhs0 _ _
    | ⟨1, _⟩ => exact (valueDot_lhs1 _ _).trans hk)
  have er : dot_S512x1024_S1024x64_S512x64_1_0_0_1_n_n.rhsIdx (ix2 r d) ((contrEquiv1 dot_S512x1024_S1024x64_S512x64_1_0_0_1_n_n 1024 rfl rfl).symm k) = ix2 k d := funext fun a => Fin.ext (by
    match a with
    | ⟨0, _⟩ => exact (valueDot_rhs0 _ _).trans hk
    | ⟨1, _⟩ => exact valueDot_rhs1 _ _)
  rw [el, er]

end Cert.KernelIdeal.Pay

end
-- ==== Proof.PayloadBlock.lean ====
/-
  What the body stores, entry by entry, from the blocks it loads.

  From a [1, 512, 64] block of queries `P0`, a [1, 1024, 64] block of keys `P1`, and [1, 512, 1024] blocks of the bias
  `P2`, the widened mask `P3` and the gate `P4`: the score of row `r` against key `k` is the fill value where the mask
  word is nonzero and `∑ d, (P0[r,d] · 1/8) · P1[k,d] − P2[r,k]` elsewhere (`blockScore`, `scoreBlock_apply`); the
  attention block is the gated softmax of each score row (`attnBlock_apply`); and with a [1, 1024, 64] block of values
  `Pv` the output block at (r, d) is `∑ k, attention[r,k] · Pv[k,d]` (`outBlock_apply`). The blocks carry a leading axis
  of extent one, which the body drops on loading and restores on storing.
-/
import proofs.«145022_j85882166051390_2_alg».proof.Proof.Gen.KernelIdeal.Skeleton
import proofs.«145022_j85882166051390_2_alg».proof.Proof.Softmax
import proofs.«145022_j85882166051390_2_alg».proof.Proof.PayloadSoftmax
import proofs.«145022_j85882166051390_2_alg».proof.Proof.PayloadDots
import Idealize.ShloMosaic.Lib.Pipeline.Value
import Idealize.ShloMosaic.Lib.ValueIdx
import Idealize.ShloMosaic.Lib.ValueLayout

noncomputable section

namespace Cert.KernelIdeal.Pay

open Cert.KernelIdeal Cert.KernelIdeal.Gen Idealize.ShloMosaic Idealize.ShloMosaic.ValueIdx

/-- The masked score of row `r` against key `k`, from the loaded blocks. -/
def blockScore (P0 : Vec Ideal S1x512x64 .f32) (P1 : Vec Ideal S1x1024x64 .f32) (P2 : Vec Ideal S1x512x1024 .f32)
    (P3 : Vec Ideal S1x512x1024 .i32) (r : Fin 512) (k : Fin 1024) : EReal :=
  Scalar.select (IntOp.cmpi .ne (P3 (ix3 (0 : Fin 1) r k)) 0#32) (Ideal.ofBits .f32 0xCF800000#32)
    ((∑ d : Fin 64, (P0 (ix3 (0 : Fin 1) r d) * Ideal.ofBits .f32 0x3E000000#32) * P1 (ix3 (0 : Fin 1) k d))
      - P2 (ix3 (0 : Fin 1) r k))

/-- The block of masked scores as the body computes it. -/
def scoreBlock (P0 : Vec Ideal S1x512x64 .f32) (P1 : Vec Ideal S1x1024x64 .f32) (P2 : Vec Ideal S1x512x1024 .f32)
    (P3 : Vec Ideal S1x512x1024 .i32) : FVec Ideal S512x1024 .f32 :=
  select (cmpi .ne (shapeCast S512x1024 P3 shapeCasts_S1x512x1024_S512x1024) (constantI S512x1024 32 0#32))
    (broadcast S512x1024 (Scalar.ofBits .f32 0xCF800000#32))
    (subf (matmul dot_S512x64_S1024x64_S512x1024_1_1_0_0_n_n none
        (truncf .bf16 (mulf (shapeCast S512x64 P0 shapeCasts_S1x512x64_S512x64) (broadcast S512x64 (Scalar.ofBits .f32 0x3E000000#32))) bitsLt_bf16_f32)
        (truncf .bf16 (shapeCast S1024x64 P1 shapeCasts_S1x1024x64_S1024x64) bitsLt_bf16_f32)
        (constant S512x1024 .f32 0x00000000#32))
      (shapeCast S512x1024 P2 shapeCasts_S1x512x1024_S512x1024))

theorem scoreBlock_apply (P0 : Vec Ideal S1x512x64 .f32) (P1 : Vec Ideal S1x1024x64 .f32) (P2 : Vec Ideal S1x512x1024 .f32)
    (P3 : Vec Ideal S1x512x1024 .i32) (r : Fin 512) (k : Fin 1024) :
    scoreBlock P0 P1 P2 P3 (ix2 r k) = blockScore P0 P1 P2 P3 r k := by
  have e1 : matmul (F := Ideal) dot_S512x64_S1024x64_S512x1024_1_1_0_0_n_n none
        (truncf .bf16 (mulf (shapeCast S512x64 P0 shapeCasts_S1x512x64_S512x64) (broadcast S512x64 (Scalar.ofBits (F := Ideal) .f32 0x3E000000#32))) bitsLt_bf16_f32)
        (truncf .bf16 (shapeCast S1024x64 P1 shapeCasts_S1x1024x64_S1024x64) bitsLt_bf16_f32)
        (constant (F := Ideal) S512x1024 .f32 0x00000000#32) (ix2 r k)
      = ∑ d : Fin 64, (P0 (ix3 (0 : Fin 1) r d) * Ideal.ofBits .f32 0x3E000000#32) * P1 (ix3 (0 : Fin 1) k d) := by
    refine (scoreDot_apply _ _ r k).trans (Finset.sum_congr rfl fun d _ => ?_)
    show shapeCast S512x64 P0 shapeCasts_S1x512x64_S512x64 (ix2 r d) * Ideal.ofBits .f32 0x3E000000#32
        * shapeCast S1024x64 P1 shapeCasts_S1x1024x64_S1024x64 (ix2 k d) = _
    rw [shapeCast_1ab_ab_apply, shapeCast_1ab_ab_apply]
  have e2 : shapeCast S512x1024 P2 shapeCasts_S1x512x1024_S512x1024 (ix2 r k) = P2 (ix3 (0 : Fin 1) r k) :=
    shapeCast_1ab_ab_apply _ _ r k
  have e3 : shapeCast S512x1024 P3 shapeCasts_S1x512x1024_S512x1024 (ix2 r k) = P3 (ix3 (0 : Fin 1) r k) :=
    shapeCast_1ab_ab_apply _ _ r k
  unfold scoreBlock blockScore
  show Scalar.select (IntOp.cmpi .ne (shapeCast S512x1024 P3 shapeCasts_S1x512x1024_S512x1024 (ix2 r k)) 0#32)
      (Ideal.ofBits .f32 0xCF800000#32)
      (matmul (F := Ideal) dot_S512x64_S1024x64_S512x1024_1_1_0_0_n_n none
        (truncf .bf16 (mulf (shapeCast S512x64 P0 shapeCasts_S1x512x64_S512x64) (broadcast S512x64 (Scalar.ofBits (F := Ideal) .f32 0x3E000000#32))) bitsLt_bf16_f32)
        (truncf .bf16 (shapeCast S1024x64 P1 shapeCasts_S1x1024x64_S1024x64) bitsLt_bf16_f32)
        (constant (F := Ideal) S512x1024 .f32 0x00000000#32) (ix2 r k)
        - shapeCast S512x1024 P2 shapeCasts_S1x512x1024_S512x1024 (ix2 r k)) = _
  rw [e1, e2, e3]

/-- The attention payload is the gated softmax of the score block. -/
theorem pay4_eq (P0 : Vec Ideal S1x512x64 .f32) (P1 : Vec Ideal S1x1024x64 .f32) (P2 : Vec Ideal S1x512x1024 .f32)
    (P3 : Vec Ideal S1x512x1024 .i32) (P4 : Vec Ideal S1x512x1024 .f32) :
    k0_pay4 (F := Ideal) P0 P1 P2 P3 P4
      = softmaxBlock (scoreBlock P0 P1 P2 P3) (shapeCast S512x1024 P4 shapeCasts_S1x512x1024_S512x1024) (.inl rfl) rfl rfl := rfl

/-- The attention block at (r, k): the gated softmax weight of column `k` in the score row `r`. -/
theorem attnBlock_apply (P0 : Vec Ideal S1x512x64 .f32) (P1 : Vec Ideal S1x1024x64 .f32) (P2 : Vec Ideal S1x512x1024 .f32)
    (P3 : Vec Ideal S1x512x1024 .i32) (P4 : Vec Ideal S1x512x1024 .f32) (r : Fin 512) (k : Fin 1024) :
    k0_pay4 (F := Ideal) P0 P1 P2 P3 P4 (ix2 r k)
      = Attn.rowWeight (blockScore P0 P1 P2 P3 r) (fun k' => P4 (ix3 (0 : Fin 1) r k')) k := by
  rw [pay4_eq]
  refine (softmaxBlock_apply _ _ _ _ _ r k).trans ?_
  exact congrArg₂ (fun s g => Attn.rowWeight s g k) (funext fun k' => scoreBlock_apply P0 P1 P2 P3 r k')
    (funext fun k' => shapeCast_1ab_ab_apply _ _ r k')

/-- The output block at (r, d): the weights `W` of row `r` against column `d` of the values. -/
theorem outBlock_apply (Pv : Vec Ideal S1x1024x64 .f32) (W : FVec Ideal S512x1024 .f32) (u : Fin 1) (r : Fin 512) (d : Fin 64) :
    k0_pay2 (F := Ideal) (k0_pay3 Pv) W (ix3 u r d) = ∑ k : Fin 1024, W (ix2 r k) * Pv (ix3 (0 : Fin 1) k d) := by
  show shapeCast S1x512x64 (matmul (F := Ideal) dot_S512x1024_S1024x64_S512x64_1_0_0_1_n_n none (truncf .bf16 W bitsLt_bf16_f32)
      (truncf .bf16 (shapeCast S1024x64 Pv shapeCasts_S1x1024x64_S1024x64) bitsLt_bf16_f32)
      (constant (F := Ideal) S512x64 .f32 0x00000000#32)) shapeCasts_S512x64_S1x512x64 (ix3 u r d) = _
  rw [shapeCast_ab_1ab_apply]
  refine (valueDot_apply _ _ r d).trans (Finset.sum_congr rfl fun k _ => ?_)
  show W (ix2 r k) * shapeCast S1024x64 Pv shapeCasts_S1x1024x64_S1024x64 (ix2 k d) = _
  rw [shapeCast_1ab_ab_apply]

end Cert.KernelIdeal.Pay

end
-- ==== Proof.BlockReads.lean ====
/-
  Where each window's block sits in its array.

  The grid has 64 × 2 points; at the point of batch `b` and query half `h` the query, mask, gate and bias windows and both
  result windows hold rows `512·h … 512·h + 511` of batch `b`, and the key and value windows hold all 1024 rows of batch
  `b` (`idx_facts`, decided over the grid; `idx_onto`: every (b, h) is some point's). So an entry of a block is the
  entry of its array at the block's offset plus the entry's position in the block (`read0` … `read5`). The mask window
  reads the mask widened to 32-bit words before the region, so its entries are the mask's bits zero-extended (`read3`).
-/
import proofs.«145022_j85882166051390_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps over the grid: every window moves with the attention result's window along the batch axis;
    the query, mask, gate, bias and output windows also along the query axis, the key and value windows not. -/
theorem idx_facts : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 3) = win0_7.index t (0 : Fin 3) ∧ win0_2.index t (1 : Fin 3) = 0 ∧ win0_2.index t (2 : Fin 3) = 0
    ∧ win0_3.index t (0 : Fin 3) = win0_7.index t (0 : Fin 3) ∧ win0_3.index t (1 : Fin 3) = win0_7.index t (1 : Fin 3) ∧ win0_3.index t (2 : Fin 3) = 0
    ∧ win0_4.index t (0 : Fin 3) = win0_7.index t (0 : Fin 3) ∧ win0_4.index t (1 : Fin 3) = win0_7.index t (1 : Fin 3) ∧ win0_4.index t (2 : Fin 3) = 0
    ∧ win0_5.index t (0 : Fin 3) = win0_7.index t (0 : Fin 3) ∧ win0_5.index t (1 : Fin 3) = win0_7.index t (1 : Fin 3) ∧ win0_5.index t (2 : Fin 3) = 0
    ∧ win0_6.index t (0 : Fin 3) = win0_7.index t (0 : Fin 3) ∧ win0_6.index t (1 : Fin 3) = win0_7.index t (1 : Fin 3) ∧ win0_6.index t (2 : Fin 3) = 0
    ∧ win0_7.index t (0 : Fin 3) < 64 ∧ win0_7.index t (1 : Fin 3) < 2 ∧ win0_7.index t (2 : Fin 3) = 0 :=
  (by decide +kernel : ∀ t : Fin grid0.N, _)

/-- Every batch and query half is some grid point's. -/
theorem idx_onto : ∀ (b : Fin 64) (h : Fin 2), ∃ t : Fin cfg0.N, win0_7.index t = ![b.val, h.val, 0] :=
  (by decide +kernel : ∀ (b : Fin 64) (h : Fin 2), ∃ t : Fin grid0.N, win0_7.index t = ![b.val, h.val, 0])

/-- Input window 0's block at point `t`, entry `x`, is the entry of `main_arg2` at the block's offset plus `x`. -/
theorem read0 (c : Dev nD) (t : Fin cfg0.N) (x : S1x512x64.Idx) (g : S64x1024x64.Idx)
    (h0 : (g 0).val = win0_0.index t (0 : Fin 3) * 1 + 1 * (x 0).val)
    (h1 : (g 1).val = win0_0.index t (1 : Fin 3) * 512 + 1 * (x 1).val)
    (h2 : (g 2).val = win0_0.index t (2 : Fin 3) * 64 + 1 * (x 2).val) :
    (iblk m c 0 t : Vec Ideal S1x512x64 .f32) x = (m ((c : Thread nD τ).loc main_arg2) : S64x1024x64.Idx → EReal) g := by
  unfold iblk
  rw [View.read_apply]
  show V m c main_arg2 _ = _
  rw [V_main_arg2]
  refine congrArg _ (funext fun a => Fin.ext ?_)
  match a with
  | ⟨0, _⟩ => exact h0.symm
  | ⟨1, _⟩ => exact h1.symm
  | ⟨2, _⟩ => exact h2.symm

/-- Input window 1's block at point `t`, entry `x`, is the entry of `main_arg0` at the block's offset plus `x`. -/
theorem read1 (c : Dev nD) (t : Fin cfg0.N) (x : S1x1024x64.Idx) (g : S64x1024x64.Idx)
    (h0 : (g 0).val = win0_1.index t (0 : Fin 3) * 1 + 1 * (x 0).val)
    (h1 : (g 1).val = win0_1.index t (1 : Fin 3) * 1024 + 1 * (x 1).val)
    (h2 : (g 2).val = win0_1.index t (2 : Fin 3) * 64 + 1 * (x 2).val) :
    (iblk m c 1 t : Vec Ideal S1x1024x64 .f32) x = (m ((c : Thread nD τ).loc main_arg0) : S64x1024x64.Idx → EReal) g := by
  unfold iblk
  rw [View.read_apply]
  show V m c main_arg0 _ = _
  rw [V_main_arg0]
  refine congrArg _ (funext fun a => Fin.ext ?_)
  match a with
  | ⟨0, _⟩ => exact h0.symm
  | ⟨1, _⟩ => exact h1.symm
  | ⟨2, _⟩ => exact h2.symm

/-- Input window 2's block at point `t`, entry `x`, is the entry of `main_arg1` at the block's offset plus `x`. -/
theorem read2 (c : Dev nD) (t : Fin cfg0.N) (x : S1x1024x64.Idx) (g : S64x1024x64.Idx)
    (h0 : (g 0).val = win0_2.index t (0 : Fin 3) * 1 + 1 * (x 0).val)
    (h1 : (g 1).val = win0_2.index t (1 : Fin 3) * 1024 + 1 * (x 1).val)
    (h2 : (g 2).val = win0_2.index t (2 : Fin 3) * 64 + 1 * (x 2).val) :
    (iblk m c 2 t : Vec Ideal S1x1024x64 .f32) x = (m ((c : Thread nD τ).loc main_arg1) : S64x1024x64.Idx → EReal) g := by
  unfold iblk
  rw [View.read_apply]
  show V m c main_arg1 _ = _
  rw [V_main_arg1]
  refine congrArg _ (funext fun a => Fin.ext ?_)
  match a with
  | ⟨0, _⟩ => exact h0.symm
  | ⟨1, _⟩ => exact h1.symm
  | ⟨2, _⟩ => exact h2.symm

/-- Input window 4's block at point `t`, entry `x`, is the entry of `main_arg4` at the block's offset plus `x`. -/
theorem read4 (c : Dev nD) (t : Fin cfg0.N) (x : S1x512x1024.Idx) (g : S64x1024x1024.Idx)
    (h0 : (g 0).val = win0_4.index t (0 : Fin 3) * 1 + 1 * (x 0).val)
    (h1 : (g 1).val = win0_4.index t (1 : Fin 3) * 512 + 1 * (x 1).val)
    (h2 : (g 2).val = win0_4.index t (2 : Fin 3) * 1024 + 1 * (x 2).val) :
    (iblk m c 4 t : Vec Ideal S1x512x1024 .f32) x = (m ((c : Thread nD τ).loc main_arg4) : S64x1024x1024.Idx → EReal) g := by
  unfold iblk
  rw [View.read_apply]
  show V m c main_arg4 _ = _
  rw [V_main_arg4]
  refine congrArg _ (funext fun a => Fin.ext ?_)
  match a with
  | ⟨0, _⟩ => exact h0.symm
  | ⟨1, _⟩ => exact h1.symm
  | ⟨2, _⟩ => exact h2.symm

/-- Input window 5's block at point `t`, entry `x`, is the entry of `main_arg5` at the block's offset plus `x`. -/
theorem read5 (c : Dev nD) (t : Fin cfg0.N) (x : S1x512x1024.Idx) (g : S64x1024x1024.Idx)
    (h0 : (g 0).val = win0_5.index t (0 : Fin 3) * 1 + 1 * (x 0).val)
    (h1 : (g 1).val = win0_5.index t (1 : Fin 3) * 512 + 1 * (x 1).val)
    (h2 : (g 2).val = win0_5.index t (2 : Fin 3) * 1024 + 1 * (x 2).val) :
    (iblk m c 5 t : Vec Ideal S1x512x1024 .f32) x = (m ((c : Thread nD τ).loc main_arg5) : S64x1024x1024.Idx → EReal) g := by
  unfold iblk
  rw [View.read_apply]
  show V m c main_arg5 _ = _
  rw [V_main_arg5]
  refine congrArg _ (funext fun a => Fin.ext ?_)
  match a with
  | ⟨0, _⟩ => exact h0.symm
  | ⟨1, _⟩ => exact h1.symm
  | ⟨2, _⟩ => exact h2.symm

/-- When the region is entered the widened mask holds the mask's bits zero-extended to 32-bit words. -/
theorem widened_mask (c : Dev nD) :
    (V m c main_v0 : S64x1024x1024.Idx → BitVec 32)
      = extui 32 (m ((c : Thread nD τ).loc main_arg3) : S64x1024x1024.Idx → BitVec 1) natLt_1_32 := by
  dsimp only [V, hostOps0]; after_results

/-- Input window 3's block at point `t`, entry `x`, is the mask bit at the block's offset plus `x`, zero-extended. -/
theorem read3 (c : Dev nD) (t : Fin cfg0.N) (x : S1x512x1024.Idx) (g : S64x1024x1024.Idx)
    (h0 : (g 0).val = win0_3.index t (0 : Fin 3) * 1 + 1 * (x 0).val)
    (h1 : (g 1).val = win0_3.index t (1 : Fin 3) * 512 + 1 * (x 1).val)
    (h2 : (g 2).val = win0_3.index t (2 : Fin 3) * 1024 + 1 * (x 2).val) :
    (iblk m c 3 t : Vec Ideal S1x512x1024 .i32) x
      = ((m ((c : Thread nD τ).loc main_arg3) : S64x1024x1024.Idx → BitVec 1) g).setWidth 32 := by
  unfold iblk
  rw [View.read_apply]
  show V m c main_v0 _ = _
  rw [widened_mask]
  show (m ((c : Thread nD τ).loc main_arg3) _).setWidth 32 = _
  refine congrArg (fun i => BitVec.setWidth 32 ((m ((c : Thread nD τ).loc main_arg3) : S64x1024x1024.Idx → BitVec 1) i)) (funext fun a => Fin.ext ?_)
  match a with
  | ⟨0, _⟩ => exact h0.symm
  | ⟨1, _⟩ => exact h1.symm
  | ⟨2, _⟩ => exact h2.symm

end Cert.KernelIdeal.Blocks

end
-- ==== Proof.PointValue.lean ====
/-
  What one grid point writes, as entries of the two result arrays.

  At the point of batch `b` and query half `h`, row `r` of the blocks is query `q = 512·h + r`. The block score of row `r`
  against key `k` is the score of `Softmax.lean` at (b, q, k): the loaded entries are the arrays' entries at the block's
  offset (`BlockReads.lean`), the mask word is nonzero exactly when the mask bit is set (`cmpi_ne_widen`), and scaling the
  query by 1/8 before the dot product is dividing the dot product by 8 (`Attn.scaled_dot`). Hence the attention block's
  entry (r, k) is `attn` at (b, q, k) and the output block's entry (r, d) is `out` at (b, q, d).
-/
import proofs.«145022_j85882166051390_2_alg».proof.Proof.Gen.KernelIdeal.Frame
import proofs.«145022_j85882166051390_2_alg».proof.Proof.Softmax
import proofs.«145022_j85882166051390_2_alg».proof.Proof.PayloadBlock
import proofs.«145022_j85882166051390_2_alg».proof.Proof.BlockReads
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx Cert.KernelIdeal.Blocks

variable (m : (ℓ : Loc nD τ sig) → Buf (Elt Ideal) ℓ)

/-- The attention weights of the argument arrays on core `c`. -/
def attnOf (c : Dev nD) : S64x1024x1024.Idx → EReal :=
  Attn.attn (m ((c : Thread nD τ).loc main_arg2)) (m ((c : Thread nD τ).loc main_arg0)) (m ((c : Thread nD τ).loc main_arg3))
    (m ((c : Thread nD τ).loc main_arg4)) (m ((c : Thread nD τ).loc main_arg5))

/-- The attention output of the argument arrays on core `c`. -/
def outOf (c : Dev nD) : S64x1024x64.Idx → EReal :=
  Attn.out (m ((c : Thread nD τ).loc main_arg2)) (m ((c : Thread nD τ).loc main_arg0)) (m ((c : Thread nD τ).loc main_arg1))
    (m ((c : Thread nD τ).loc main_arg3)) (m ((c : Thread nD τ).loc main_arg4)) (m ((c : Thread nD τ).loc main_arg5))

/-- A mask bit widened to a 32-bit word is nonzero exactly when the bit is set. -/
theorem cmpi_ne_widen (x : BitVec 1) : IntOp.cmpi .ne (x.setWidth 32) 0#32 = x := by
  by_cases h : x = 1#1
  · subst h; rfl
  · rw [eq_zero_of_ne_one h]; rfl

/-- The score row of block row `r` at point `t` is the score row of query `q` in batch `b`. -/
theorem score_point (c : Dev nD) (t : Fin cfg0.N) (r : Fin 512) (b : Fin 64) (q : Fin 1024)
    (hb : b.val = win0_7.index t (0 : Fin 3)) (hq : q.val = win0_7.index t (1 : Fin 3) * 512 + r.val) (k : Fin 1024) :
    Pay.blockScore (iblk m c 0 t) (iblk m c 1 t) (iblk m c 5 t) (iblk m c 3 t) r k
      = Attn.scoreRow (m ((c : Thread nD τ).loc main_arg2)) (m ((c : Thread nD τ).loc main_arg0))
          (m ((c : Thread nD τ).loc main_arg3)) (m ((c : Thread nD τ).loc main_arg5)) b q k := by
  obtain ⟨f00, f01, f02, f10, f11, f12, f20, f21, f22, f30, f31, f32, f40, f41, f42, f50, f51, f52, f60, f61, f62, g0, g1, g2⟩ := idx_facts t
  unfold Pay.blockScore Attn.scoreRow
  rw [read3 m c t (ix3 (0 : Fin 1) r k) (ix3 b q k)
      (by show b.val = win0_3.index t (0 : Fin 3) * 1 + 1 * 0; omega)
      (by show q.val = win0_3.index t (1 : Fin 3) * 512 + 1 * r.val; omega)
      (by show k.val = win0_3.index t (2 : Fin 3) * 1024 + 1 * k.val; omega),
    read5 m c t (ix3 (0 : Fin 1) r k) (ix3 b q k)
      (by show b.val = win0_5.index t (0 : Fin 3) * 1 + 1 * 0; omega)
      (by show q.val = win0_5.index t (1 : Fin 3) * 512 + 1 * r.val; omega)
      (by show k.val = win0_5.index t (2 : Fin 3) * 1024 + 1 * k.val; omega),
    cmpi_ne_widen, ← Attn.scaled_dot]
  refine congrArg (fun s => Scalar.select _ _ (s - _)) (Finset.sum_congr rfl fun d _ => ?_)
  rw [read0 m c t (ix3 (0 : Fin 1) r d) (ix3 b q d)
      (by show b.val = win0_0.index t (0 : Fin 3) * 1 + 1 * 0; omega)
      (by show q.val = win0_0.index t (1 : Fin 3) * 512 + 1 * r.val; omega)
      (by show d.val = win0_0.index t (2 : Fin 3) * 64 + 1 * d.val; omega),
    read1 m c t (ix3 (0 : Fin 1) k d) (ix3 b k d)
      (by show b.val = win0_1.index t (0 : Fin 3) * 1 + 1 * 0; omega)
      (by show k.val = win0_1.index t (1 : Fin 3) * 1024 + 1 * k.val; omega)
      (by show d.val = win0_1.index t (2 : Fin 3) * 64 + 1 * d.val; omega)]

/-- The attention block's entry (r, k) at point `t` is the attention weight at (b, q, k). -/
theorem attn_point (c : Dev nD) (t : Fin cfg0.N) (r : Fin 512) (k : Fin 1024) (b : Fin 64) (q : Fin 1024)
    (hb : b.val = win0_7.index t (0 : Fin 3)) (hq : q.val = win0_7.index t (1 : Fin 3) * 512 + r.val) :
    k0_pay4 (F := Ideal) (iblk m c 0 t) (iblk m c 1 t) (iblk m c 5 t) (iblk m c 3 t) (iblk m c 4 t) (ix2 r k)
      = attnOf m c (ix3 b q k) := by
  obtain ⟨f00, f01, f02, f10, f11, f12, f20, f21, f22, f30, f31, f32, f40, f41, f42, f50, f51, f52, f60, f61, f62, g0, g1, g2⟩ := idx_facts t
  refine (Pay.attnBlock_apply (iblk m c 0 t) (iblk m c 1 t) (iblk m c 5 t) (iblk m c 3 t) (iblk m c 4 t) r k).trans ?_
  show _ = Attn.rowWeight (Attn.scoreRow (m ((c : Thread nD τ).loc main_arg2)) (m ((c : Thread nD τ).loc main_arg0))
      (m ((c : Thread nD τ).loc main_arg3)) (m ((c : Thread nD τ).loc main_arg5)) b q)
    (fun k' => (m ((c : Thread nD τ).loc main_arg4) : S64x1024x1024.Idx → EReal) (ix3 b q k')) k
  refine congrArg₂ (fun s g => Attn.rowWeight s g k) (funext fun k' => score_point m c t r b q hb hq k') (funext fun k' => ?_)
  exact read4 m c t (ix3 (0 : Fin 1) r k') (ix3 b q k')
      (by show b.val = win0_4.index t (0 : Fin 3) * 1 + 1 * 0; omega)
      (by show q.val = win0_4.index t (1 : Fin 3) * 512 + 1 * r.val; omega)
      (by show k'.val = win0_4.index t (2 : Fin 3) * 1024 + 1 * k'.val; omega)

/-- The output block's entry (r, d) at point `t` is the attention output at (b, q, d). -/
theorem out_point (c : Dev nD) (t : Fin cfg0.N) (u : Fin 1) (r : Fin 512) (d : Fin 64) (b : Fin 64) (q : Fin 1024)
    (hb : b.val = win0_7.index t (0 : Fin 3)) (hq : q.val = win0_7.index t (1 : Fin 3) * 512 + r.val) :
    k0_pay2 (F := Ideal) (k0_pay3 (iblk m c 2 t))
        (k0_pay4 (iblk m c 0 t) (iblk m c 1 t) (iblk m c 5 t) (iblk m c 3 t) (iblk m c 4 t)) (ix3 u r d)
      = outOf m c (ix3 b q d) := by
  obtain ⟨f00, f01, f02, f10, f11, f12, f20, f21, f22, f30, f31, f32, f40, f41, f42, f50, f51, f52, f60, f61, f62, g0, g1, g2⟩ := idx_facts t
  refine (Pay.outBlock_apply (iblk m c 2 t) _ u r d).trans ?_
  show _ = ∑ k : Fin 1024, attnOf m c (ix3 b q k) * (m ((c : Thread nD τ).loc main_arg1) : S64x1024x64.Idx → EReal) (ix3 b k d)
  refine Finset.sum_congr rfl fun k _ => ?_
  rw [attn_point m c t r k b q hb hq, read2 m c t (ix3 (0 : Fin 1) k d) (ix3 b k d)
      (by show b.val = win0_2.index t (0 : Fin 3) * 1 + 1 * 0; omega)
      (by show k.val = win0_2.index t (1 : Fin 3) * 1024 + 1 * k.val; omega)
      (by show d.val = win0_2.index t (2 : Fin 3) * 64 + 1 * d.val; omega)]

end Cert.KernelIdeal.Hand

end
-- ==== Proof.Written.lean ====
/-
  From what each grid point writes to the two result arrays after the run.

  Each point writes back one [1, 512, 1024] block of the attention array and one [1, 512, 64] block of the output array,
  and what it writes is the corresponding block of `attnOf`, resp. `outOf` (`flushed7_eq`, `flushed6_eq`, from
  `PointValue.lean`). The 64 × 2 blocks tile each array: the entry (b, q, ·) lies in the block of the point of batch `b` and
  query half `q / 512` (`cover7`, `cover6`). So after the run the arrays hold `attnOf` and `outOf` (`final7`, `final6`,
  `run`).
-/
import proofs.«145022_j85882166051390_2_alg».proof.Proof.Gen.KernelIdeal.Frame
import proofs.«145022_j85882166051390_2_alg».proof.Proof.Gen.KernelIdeal.Value
import proofs.«145022_j85882166051390_2_alg».proof.Proof.PointValue
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx Cert.KernelIdeal.Blocks
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-! ## The attention array -/

/-- What point `t` writes back to the attention array is block `t` of `attnOf`. -/
theorem flushed7_eq (c : Dev nD) (t : Fin cfg0.N) :
    (dats m 0 c).flushed 7 t = ((cfg0.win 7).blk t).view.read (Elt Ideal) (attnOf m c) := by
  obtain ⟨f00, f01, f02, f10, f11, f12, f20, f21, f22, f30, f31, f32, f40, f41, f42, f50, f51, f52, f60, f61, f62, g0, g1, g2⟩ := idx_facts t
  rw [Cert.KernelIdeal.Value.flushed7]
  unfold out0_7
  rw [View.canon_unit_zero zero_offsets]
  simp only [View.ld_unit_zero (S := S1x512x64) zero_offsets, View.ld_unit_zero (S := S1x1024x64) zero_offsets,
    View.ld_unit_zero (S := S1x512x1024) zero_offsets]
  funext y
  obtain ⟨u, r, k, rfl⟩ : ∃ (u : Fin 1) (r : Fin 512) (k : Fin 1024), y = ix3 u r k := ⟨y 0, y 1, y 2, eq_ix3 y⟩
  show shapeCast S1x512x1024 (k0_pay4 (F := Ideal) (iblk m c 0 t) (iblk m c 1 t) (iblk m c 5 t) (iblk m c 3 t) (iblk m c 4 t))
      shapeCasts_S512x1024_S1x512x1024 (ix3 u r k)
    = attnOf m c (((cfg0.win 7).blk t).view.emb (ix3 u r k))
  rw [shapeCast_ab_1ab_apply]
  have eg : ((cfg0.win 7).blk t).view.emb (ix3 u r k)
      = ix3 (⟨win0_7.index t (0 : Fin 3), g0⟩ : Fin 64) (⟨win0_7.index t (1 : Fin 3) * 512 + r.val, by omega⟩ : Fin 1024) k :=
    funext fun a => Fin.ext (by
      match a with
      | ⟨0, _⟩ => show win0_7.index t (0 : Fin 3) * 1 + 1 * u.val = win0_7.index t (0 : Fin 3); omega
      | ⟨1, _⟩ => show win0_7.index t (1 : Fin 3) * 512 + 1 * r.val = win0_7.index t (1 : Fin 3) * 512 + r.val; omega
      | ⟨2, _⟩ => show win0_7.index t (2 : Fin 3) * 1024 + 1 * k.val = k.val; omega)
  rw [eg]
  exact attn_point m c t r k _ _ rfl rfl

/-- An index of the attention array is in point `t`'s block iff each coordinate is in the block's range on its axis. -/
theorem mem_blk7 (t : Fin cfg0.N) (i : S64x1024x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v1_1).slice (win0_7.rect t)).set ↔ _
  rw [View.set_slice_whole, Rect.mem_set_unit]
  exact Iff.rfl

/-- Every entry of the attention array is in some point's block. -/
theorem cover7 (i : S64x1024x1024.Idx) :
    ∃ t : Fin cfg0.N, (cfg0.win 7).flush t = true ∧ i ∈ ((cfg0.win 7).blk t).view.set := by
  have hi0 : (i 0).val < 64 := (i 0).isLt
  have hi1 : (i 1).val < 1024 := (i 1).isLt
  have hi2 : (i 2).val < 1024 := (i 2).isLt
  obtain ⟨t, ht⟩ := idx_onto ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- After the run the attention array holds `attnOf`. -/
theorem final7 (c : Dev nD) : (dats m 0 c).arrAt 7 cfg0.N = attnOf m c :=
  (dats m 0 c).arrAt_eq_of_cover 7 (attnOf m c) (fun t _ => flushed7_eq m c t) cover7

/-! ## The output array -/

/-- What point `t` writes back to the output array is block `t` of `outOf`. -/
theorem flushed6_eq (c : Dev nD) (t : Fin cfg0.N) :
    (dats m 0 c).flushed 6 t = ((cfg0.win 6).blk t).view.read (Elt Ideal) (outOf m c) := by
  obtain ⟨f00, f01, f02, f10, f11, f12, f20, f21, f22, f30, f31, f32, f40, f41, f42, f50, f51, f52, f60, f61, f62, g0, g1, g2⟩ := idx_facts t
  rw [Cert.KernelIdeal.Value.flushed6]
  unfold out0_6
  rw [View.canon_unit_zero zero_offsets]
  simp only [View.ld_unit_zero (S := S1x512x64) zero_offsets, View.ld_unit_zero (S := S1x1024x64) zero_offsets,
    View.ld_unit_zero (S := S1x512x1024) zero_offsets]
  funext y
  obtain ⟨u, r, d, rfl⟩ : ∃ (u : Fin 1) (r : Fin 512) (d : Fin 64), y = ix3 u r d := ⟨y 0, y 1, y 2, eq_ix3 y⟩
  show k0_pay2 (F := Ideal) (k0_pay3 (iblk m c 2 t))
      (k0_pay4 (iblk m c 0 t) (iblk m c 1 t) (iblk m c 5 t) (iblk m c 3 t) (iblk m c 4 t)) (ix3 u r d)
    = outOf m c (((cfg0.win 6).blk t).view.emb (ix3 u r d))
  have eg : ((cfg0.win 6).blk t).view.emb (ix3 u r d)
      = ix3 (⟨win0_7.index t (0 : Fin 3), g0⟩ : Fin 64) (⟨win0_7.index t (1 : Fin 3) * 512 + r.val, by omega⟩ : Fin 1024) d :=
    funext fun a => Fin.ext (by
      match a with
      | ⟨0, _⟩ => show win0_6.index t (0 : Fin 3) * 1 + 1 * u.val = win0_7.index t (0 : Fin 3); omega
      | ⟨1, _⟩ => show win0_6.index t (1 : Fin 3) * 512 + 1 * r.val = win0_7.index t (1 : Fin 3) * 512 + r.val; omega
      | ⟨2, _⟩ => show win0_6.index t (2 : Fin 3) * 64 + 1 * d.val = d.val; omega)
  rw [eg]
  exact out_point m c t u r d _ _ rfl rfl

/-- An index of the output array is in point `t`'s block iff each coordinate is in the block's range on its axis. -/
theorem mem_blk6 (t : Fin cfg0.N) (i : S64x1024x64.Idx) :
    i ∈ ((cfg0.win 6).blk t).view.set ↔ ∀ a : Fin 3, win0_6.index t a * S1x512x64.size a ≤ (i a).val
      ∧ (i a).val < win0_6.index t a * S1x512x64.size a + S1x512x64.size a := by
  show i ∈ ((View.whole main_v1_0).slice (win0_6.rect t)).set ↔ _
  rw [View.set_slice_whole, Rect.mem_set_unit]
  exact Iff.rfl

/-- Every entry of the output array is in some point's block. -/
theorem cover6 (i : S64x1024x64.Idx) :
    ∃ t : Fin cfg0.N, (cfg0.win 6).flush t = true ∧ i ∈ ((cfg0.win 6).blk t).view.set := by
  have hi0 : (i 0).val < 64 := (i 0).isLt
  have hi1 : (i 1).val < 1024 := (i 1).isLt
  have hi2 : (i 2).val < 64 := (i 2).isLt
  obtain ⟨t, ht⟩ := idx_onto ⟨(i 0).val, hi0⟩ ⟨(i 1).val / 512, by omega⟩
  obtain ⟨f00, f01, f02, f10, f11, f12, f20, f21, f22, f30, f31, f32, f40, f41, f42, f50, f51, f52, f60, f61, f62, g0, g1, g2⟩ := idx_facts t
  have q0 : win0_7.index t (0 : Fin 3) = (i 0).val := congrFun ht 0
  have q1 : win0_7.index t (1 : Fin 3) = (i 1).val / 512 := congrFun ht 1
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 64 ≤ (i 2).val ∧ (i 2).val < win0_6.index t (2 : Fin 3) * 64 + 64; omega

/-- After the run the output array holds `outOf`. -/
theorem final6 (c : Dev nD) : (dats m 0 c).arrAt 6 cfg0.N = outOf m c :=
  (dats m 0 c).arrAt_eq_of_cover 6 (outOf m c) (fun t _ => flushed6_eq m c t) cover6

/-! ## The run -/

/-- Every execution of the kernel ends with the output array at `outOf`, the attention array at `attnOf`, and the
    argument arrays unchanged. -/
theorem run : θ_run defs (onTc (τ := τ) (main (F := Ideal))) ⟨m, fun _ => 0, ρ⟩ fun r => ∀ c : Dev nD,
      r.2.mem ((c : Thread nD τ).loc main_v1_0) = outOf m c
      ∧ r.2.mem ((c : Thread nD τ).loc main_v1_1) = attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Cert.KernelIdeal.Value.run_blocks m ρ)

end Cert.KernelIdeal.Hand

end
-- ==== Proof.lean ====
/-
  The kernel is masked softmax attention with a gate: `attn[b,q,·]` is the softmax over the keys of
  `(∑ d, Q[b,q,d] · K[b,k,d]) / 8 − G[b,q,k]`, replaced by a fill value where the mask is set, times `Qm[b,q,·]`, and
  `out[b,q,d] = ∑ k, attn[b,q,k] · V[b,k,d]` (`Proof/Softmax.lean`). The reference computes exactly these two arrays
  (`Proof/RefValue.lean`). The kernel works block by block over a 64 × 2 grid, scales the queries by 1/8 before the dot
  product instead of dividing after it — the same extended real, since a finite nonnegative factor distributes over
  sums — and tests the mask through 32-bit words; each grid point writes the corresponding blocks of the same two
  arrays and the blocks tile them (`Proof/PointValue.lean`, `Proof/Written.lean`). Both runs therefore end with equal
  results at equal arguments. The idealization rewrote nothing, so `preserves` is trivial; the kernels' frames are the
  generated ones, the reference's frame is its run with the results dropped.
-/
import proofs.«145022_j85882166051390_2_alg».proof.Defs
import proofs.«145022_j85882166051390_2_alg».proof.Proof.Gen.Kernel
import proofs.«145022_j85882166051390_2_alg».proof.Proof.Gen.Kernel.Skeleton
import proofs.«145022_j85882166051390_2_alg».proof.Proof.Gen.Kernel.Launch
import proofs.«145022_j85882166051390_2_alg».proof.Proof.Gen.Kernel.Points
import proofs.«145022_j85882166051390_2_alg».proof.Proof.Gen.Kernel.Frame
import proofs.«145022_j85882166051390_2_alg».proof.Proof.Gen.KernelIdeal
import proofs.«145022_j85882166051390_2_alg».proof.Proof.Gen.KernelIdeal.Skeleton
import proofs.«145022_j85882166051390_2_alg».proof.Proof.Gen.KernelIdeal.Launch
import proofs.«145022_j85882166051390_2_alg».proof.Proof.Gen.KernelIdeal.Points
import proofs.«145022_j85882166051390_2_alg».proof.Proof.Gen.KernelIdeal.Frame
import proofs.«145022_j85882166051390_2_alg».proof.Proof.Gen.ReferenceIdeal
import proofs.«145022_j85882166051390_2_alg».proof.Proof.Gen.Pre_finite_inputs
import proofs.«145022_j85882166051390_2_alg».proof.Proof.Gen.KernelIdeal.Value
import proofs.«145022_j85882166051390_2_alg».proof.Proof.Gen.ReferenceIdeal.Run
import proofs.«145022_j85882166051390_2_alg».proof.Proof.Gen.ReferenceIdeal.Read
import proofs.«145022_j85882166051390_2_alg».proof.Proof.RefValue
import proofs.«145022_j85882166051390_2_alg».proof.Proof.Written
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the output array at `Attn.out` and the attention array at `Attn.attn` of their arguments,
    which agree. -/
theorem algebraic : Cert.algebraic_KernelIdeal_ReferenceIdeal := by
  intro m ρ m' ρ' _ hagree
  refine ⟨fun c => Cert.KernelIdeal.Hand.outOf m c, fun c => Cert.KernelIdeal.Hand.attnOf m c,
    Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · refine (Cert.ReferenceIdeal.RefValue.out_eq _ _ _ _ _ _).trans ?_
    rw [a0, a1, a2, a3, a4, a5]
    rfl
  · refine (Cert.ReferenceIdeal.RefValue.attn_eq _ _ _ _ _).trans ?_
    rw [a0, a2, a3, a4, a5]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
